-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S2x8x128 : Shape := ⟨3, ![2, 8, 128]⟩
abbrev S512x1024 : Shape := ⟨2, ![512, 1024]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Pointwise.lean ====
/-
  The integrand of the divergence between two diagonal Gaussians, on the extended reals.

  At one entry, with variances v1, v2 and squared mean difference dd, one side computes

    (log v2 - log v1) + v1 * (1 / v2) + dd * (1 / v2)

  and the other

    (log v2 - log v1) + v1 / v2 + dd / v2.

  Off v2 = 0 the quotient x / v2 is the product x * v2⁻¹ and 1 / v2 is v2⁻¹, so the two agree term by term.
  At v2 = 0 the products and the quotients may differ (0 * (1 / 0) = 0 while 0 / 0 is the bottom element), but
  log 0 is the bottom element, which absorbs every sum it enters: both sides are the bottom element.
  Nothing here needs an entry to be finite.

  A row is then summed and shifted: the sum of (a + b + c) less n on one side, and
  ((sum a - n) + sum b) + sum c on the other; sums start from a zero. Addition on the extended reals is
  commutative and associative, which is all that is used.
-/
import Idealize.ShloMosaic.PureOps.Ideal
import Idealize.ShloMosaic.PureOps.Ideal.Laws

noncomputable section

namespace Cert.KL

open Idealize.ShloMosaic

/-- The logarithm of zero is the bottom element. -/
theorem log_zero : Ideal.log 0 = ⊥ := by
  rw [← EReal.coe_zero, Ideal.log_coe, if_pos le_rfl]

/-- The bottom element absorbs a difference it starts. -/
theorem bot_sub (x : EReal) : (⊥ : EReal) - x = ⊥ := by
  rw [sub_eq_add_neg, EReal.bot_add]

/-- The integrand at one entry: the form with the reciprocal taken first is the form with two quotients. -/
theorem cell_eq (one l1 v1 v2 dd : EReal) (h1 : one = 1) :
    ((Ideal.log v2 - l1) + v1 * Ideal.div one v2) + dd * Ideal.div one v2
      = ((Ideal.log v2 - l1) + Ideal.div v1 v2) + Ideal.div dd v2 := by
  subst h1
  by_cases h : v2 = 0
  · subst h
    rw [log_zero, bot_sub, EReal.bot_add, EReal.bot_add, EReal.bot_add, EReal.bot_add]
  · unfold Ideal.div
    simp only [if_neg h, one_mul]

/-- A row: the sum of the three-term integrand, less n, is the three sums taken apart, each from a zero. -/
theorem row_eq {K : Nat} (a b c : Fin K → EReal) (n z : EReal) (hz : z = 0) :
    (∑ j : Fin K, ((a j + b j) + c j)) - n
      = (((z + ∑ j : Fin K, a j) - n) + (z + ∑ j : Fin K, b j)) + (z + ∑ j : Fin K, c j) := by
  subst hz
  simp only [zero_add]
  rw [Finset.sum_add_distrib, Finset.sum_add_distrib, sub_eq_add_neg, sub_eq_add_neg]
  ac_rfl

end Cert.KL

end
-- ==== Proof.Spec.lean ====
/-
  The divergence as one function of the four argument arrays.

  The arrays are [16384, 1024]: the means m1, m2 and the variances v1, v2 of 16384 pairs of diagonal Gaussians in 1024
  dimensions. At an entry the integrand is

    cell = (log v2 - log v1) + v1 * (1 / v2) + (m2 - m1)^2 * (1 / v2),

  a row's value is rowVal b = 1/2 * (sum over the 1024 entries of the row of cell, less 1024), and the result is
  the sum of the 16384 row values divided by 16384. The constants are kept as the words that denote them; only
  the zero and the one are ever evaluated.
-/
import Idealize.ShloMosaic.Lib.ValueIdx
import proofs.«109053_j24172075941906_2_alg».proof.Proof.Pointwise

noncomputable section

namespace Cert.KL

open Idealize.ShloMosaic Idealize.ShloMosaic.ValueIdx

/-- The words of the constants: 1, 1024, 1/2, 16384 and 0. -/
abbrev cOne : EReal := Ideal.ofBits .f32 0x3F800000#32
abbrev cDim : EReal := Ideal.ofBits .f32 0x44800000#32
abbrev cHalf : EReal := Ideal.ofBits .f32 0x3F000000#32
abbrev cCount : EReal := Ideal.ofBits .f32 0x46800000#32
abbrev cZero : EReal := Ideal.ofBits .f32 0x00000000#32

theorem cZero_eq : cZero = 0 := Ideal.ofBits_zero_f32

theorem cOne_eq : cOne = 1 := IdealRules.sign_bit.ideal_onePat .f32

/-- A vector's index is its one coordinate, so a sum over a vector's indices is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The integrand at one entry. -/
def cell (m1 m2 v1 v2 : EReal) : EReal :=
  ((Ideal.log v2 - Ideal.log v1) + v1 * Ideal.div cOne v2) + ((m2 - m1) * (m2 - m1)) * Ideal.div cOne v2

/-- A [R, 1024] array of extended reals. -/
abbrev Mat (R : Nat) : Type := (⟨2, ![R, 1024]⟩ : Shape).Idx → EReal

/-- The value of row `b`: half of (the row's integrand summed, less the dimension). -/
def rowVal {R : Nat} (A0 A1 A2 A3 : Mat R) (b : Fin R) : EReal :=
  cHalf * ((∑ j : Fin 1024, cell (A0 (ix2 b j)) (A1 (ix2 b j)) (A2 (ix2 b j)) (A3 (ix2 b j))) - cDim)

/-- The result: the mean of the row values. -/
def total (A0 A1 A2 A3 : Mat 16384) : EReal :=
  Ideal.div (∑ b : Fin 16384, rowVal A0 A1 A2 A3 b) cCount

end Cert.KL

end
-- ==== Proof.RefValue.lean ====
/-
  The reference computes the mean of the row values.

  Row by row it sums three arrays apart — log v2 - log v1, v1 / v2 and (m2 - m1)^2 / v2 —, subtracts the
  dimension from the first sum, adds the other two, halves, sums the rows and divides by their number. Entry by
  entry the three-term integrand with two quotients is the integrand with the reciprocal taken first, and a sum
  of three-term entries is the three sums; so each of its rows is the row value and its result the mean.
-/
import proofs.«109053_j24172075941906_2_alg».proof.Proof.Gen.ReferenceIdeal.Read
import proofs.«109053_j24172075941906_2_alg».proof.Proof.Spec

noncomputable section

namespace Cert.ReferenceIdeal.RefValue

open Cert.ReferenceIdeal Cert.ReferenceIdeal.Read Idealize.ShloMosaic Idealize.ShloMosaic.ValueIdx Cert.KL

/-- The entries a row sum adds up at row `b` are the (b, k). -/
theorem idx3 (b : Fin 16384) (k : Fin 1024) : idx_main_v3 (ix1 b) k = ix2 b k :=
  funext fun a => Fin.ext (by match a with | ⟨0, _⟩ => rfl | ⟨1, _⟩ => rfl)
theorem idx5 (b : Fin 16384) (k : Fin 1024) : idx_main_v5 (ix1 b) k = ix2 b k :=
  funext fun a => Fin.ext (by match a with | ⟨0, _⟩ => rfl | ⟨1, _⟩ => rfl)
theorem idx9 (b : Fin 16384) (k : Fin 1024) : idx_main_v9 (ix1 b) k = ix2 b k :=
  funext fun a => Fin.ext (by match a with | ⟨0, _⟩ => rfl | ⟨1, _⟩ => rfl)

/-- The reference's row `b`, before the rows are summed, is the row value. -/
theorem row_apply (x0 x1 x2 x3 : (⟨S16384x1024, .f32⟩ : BufTy).Contents (Elt Ideal)) (b : Fin 16384) :
    val_main_v15 (F := Ideal) x0 x1 x2 x3 (ix1 b) = rowVal x0 x1 x2 x3 b := by
  rw [val_main_v15_apply, val_main_v14_apply, val_main_cst_3_apply, val_main_v13_apply, val_main_v12_apply,
    val_main_v11_apply, val_main_v10_apply, val_main_cst_2_apply, val_main_v3_apply, val_main_v5_apply,
    val_main_v9_apply, val_main_cst_apply, val_main_cst_0_apply, val_main_cst_1_apply]
  simp only [idx3, idx5, idx9, val_main_v2_apply, val_main_v0_apply, val_main_v1_apply, val_main_v4_apply,
    val_main_v8_apply, val_main_v7_apply, val_main_v6_apply, Ideal.mulf_def, Ideal.addf_def, Ideal.subf_def,
    Ideal.hostDivf_def, Ideal.hostUnary_log_def, Ideal.ofBits_def]
  unfold rowVal
  refine congrArg (cHalf * ·) ?_
  rw [← row_eq _ _ _ cDim cZero cZero_eq]
  refine congrArg (· - cDim) (Finset.sum_congr rfl fun j _ => ?_)
  exact (cell_eq cOne _ _ _ _ cOne_eq).symm

/-- The reference's result is the mean of the row values. -/
theorem result_eq (x0 x1 x2 x3 : (⟨S16384x1024, .f32⟩ : BufTy).Contents (Elt Ideal)) :
    val_main_v17 (F := Ideal) x0 x1 x2 x3 = fun _ => total x0 x1 x2 x3 := by
  funext i
  rw [val_main_v17_apply, val_main_v16_apply, val_main_cst_5_apply, val_main_cst_4_apply]
  simp only [Ideal.hostDivf_def, Ideal.ofBits_def]
  unfold total
  refine congrArg (Ideal.div · cCount) ?_
  rw [Ideal.ofBits_zero_f32, zero_add, sum_idx1]
  exact Finset.sum_congr rfl fun b _ => row_apply x0 x1 x2 x3 b

end Cert.ReferenceIdeal.RefValue

end
-- ==== Proof.Pieces.lean ====
/-
  What each case of the body leaves behind, as values.

  The body has three cases by the position on the inner grid axis. At the first inner position it stores zeros
  into the accumulator, reads them back and stores the zeros plus the block's contribution. At the middle positions
  it stores the accumulator it finds plus the block's contribution. At the last inner position it does the same
  and then copies the accumulator it has just stored into the output block.
-/
import proofs.«109053_j24172075941906_2_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- First inner position: the accumulator ends at the zeros plus the block's contribution. -/
theorem scratch_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S512x1024 .f32) (x1 : Vec F S512x1024 .f32) (x2 : Vec F S512x1024 .f32) (x3 : Vec F S512x1024 .f32) :
    sout0_A_0 c i arg2 harg2 arg3 harg3 arg4 harg4 arg5 harg5 arg6 harg6 arg7 harg7 hc0 hc1 x0 x1 x2 x3 = k0_pay3 x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x128) zero2, View.readCov_unit_zero (S := S8x128) _ zero2]
  simp only [View.readAt_eq_ld, harg2.read_unread, harg3.read_unread, harg4.read_unread, harg5.read_unread,
    View.ld_unit_zero (S := S512x1024) zero2, View.ld_unit_zero (S := S8x128) zero2]

/-- Middle inner positions: the accumulator ends at what it held plus the block's contribution. -/
theorem scratch_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S512x1024 .f32) (x1 : Vec F S512x1024 .f32) (x2 : Vec F S512x1024 .f32) (x3 : Vec F S512x1024 .f32) (xs0 : Vec F S8x128 .f32) :
    sout0_B_0 c i arg2 harg2 arg3 harg3 arg4 harg4 arg5 harg5 arg6 harg6 arg7 harg7 hc0 hc1 x0 x1 x2 x3 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero zero2]
  simp only [View.readAt_eq_ld, harg2.read_unread, harg3.read_unread, harg4.read_unread, harg5.read_unread, harg7.read_unread,
    View.ld_unit_zero (S := S512x1024) zero2, View.ld_unit_zero (S := S8x128) zero2]

/-- Last inner position: the accumulator likewise, -/
theorem scratch_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S512x1024 .f32) (x1 : Vec F S512x1024 .f32) (x2 : Vec F S512x1024 .f32) (x3 : Vec F S512x1024 .f32) (xs0 : Vec F S8x128 .f32) :
    sout0_C_0 c i arg2 harg2 arg3 harg3 arg4 harg4 arg5 harg5 arg6 harg6 arg7 harg7 hc0 hc1 x0 x1 x2 x3 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zero2]
  simp only [View.readAt_eq_ld, harg2.read_unread, harg3.read_unread, harg4.read_unread, harg5.read_unread, harg7.read_unread,
    View.ld_unit_zero (S := S512x1024) zero2, View.ld_unit_zero (S := S8x128) zero2]

/-- and the output block holds that accumulator, viewed [1, 8, 128]. -/
theorem out_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S512x1024 .f32) (x1 : Vec F S512x1024 .f32) (x2 : Vec F S512x1024 .f32) (x3 : Vec F S512x1024 .f32) (xs0 : Vec F S8x128 .f32) :
    out0_C_4 c i arg2 harg2 arg3 harg3 arg4 harg4 arg5 harg5 arg6 harg6 arg7 harg7 hc0 hc1 x0 x1 x2 x3 xs0 = k0_pay1 (k0_pay3 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero3, View.readCov_unit_zero (S := S8x128) _ zero2]
  simp only [View.readAt_eq_ld, harg2.read_unread, harg3.read_unread, harg4.read_unread, harg5.read_unread, harg7.read_unread,
    View.ld_unit_zero (S := S512x1024) zero2, View.ld_unit_zero (S := S8x128) zero2]

end Cert.KernelIdeal.KValue

end
-- ==== Proof.Payload.lean ====
/-
  What the body adds to the accumulator at one grid point.

  A grid point sees a [512, 1024] block of each argument. The body forms the integrand entry by entry, sums each
  row over its 1024 lanes, subtracts the dimension and halves — the block's 512 row values —, sums those into one
  number, and adds that number to every entry of the [8, 128] accumulator. So the stored accumulator is, at every
  entry, the loaded one plus the block's value: the sum of its 512 row values.
-/
import proofs.«109053_j24172075941906_2_alg».proof.Proof.Gen.KernelIdeal.Skeleton
import proofs.«109053_j24172075941906_2_alg».proof.Proof.Spec
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx Cert.KL

/-- The value of a [R, 1024] block: the sum of its row values. -/
def blockVal {R : Nat} (x0 x1 x2 x3 : Mat R) : EReal := ∑ r : Fin R, rowVal x0 x1 x2 x3 r

/-- One number, kept as a [1] vector, viewed [1, 1] and stretched over the [8, 128] accumulator and added to it:
    every entry gets the number. -/
theorem spread_apply (w : (⟨1, ![1]⟩ : Shape).Idx → EReal) (acc : (⟨2, ![8, 128]⟩ : Shape).Idx → EReal)
    (h1 : (⟨1, ![1]⟩ : Shape).ShapeCasts ⟨2, ![1, 1]⟩) (h2 : (⟨2, ![1, 1]⟩ : Shape).ShapeCasts ⟨2, ![1, 1]⟩)
    (h3 : (⟨2, ![1, 1]⟩ : Shape).Broadcasts ⟨2, ![8, 128]⟩) (h4 : (⟨2, ![8, 128]⟩ : Shape).ShapeCasts ⟨2, ![8, 128]⟩)
    (y : (⟨2, ![8, 128]⟩ : Shape).Idx) :
    shapeCast (⟨2, ![8, 128]⟩ : Shape)
        (addf (F := Ideal) (φ := .f32) acc (broadcastTo (⟨2, ![8, 128]⟩ : Shape) (shapeCast (⟨2, ![1, 1]⟩ : Shape) (shapeCast (⟨2, ![1, 1]⟩ : Shape) w h1) h2) h3)) h4 y
      = acc y + w (ix1 0) := by
  rw [shapeCast_self, shapeCast_self]
  refine congrArg (acc y + ·) ?_
  refine (broadcastTo_apply _ h3 y (ix2 (0 : Fin 1) (0 : Fin 1)) (fun a => by match a with | ⟨0, _⟩ => rfl | ⟨1, _⟩ => rfl)).trans ?_
  exact shapeCast_apply w h1 _ (ix1 (0 : Fin 1)) (by rw [Shape.rowMajor_val_one, Shape.rowMajor_val_two]; rfl)

/-- The sum of a [512, 1] column over its rows. -/
theorem colSum_apply (u : (⟨2, ![512, 1]⟩ : Shape).Idx → EReal) (h : (⟨2, ![512, 1]⟩ : Shape).Reduces [0] ⟨1, ![1]⟩)
    (hφ : FKind.Formats .f32) (hacc : (0x00000000#32 : BitVec 32) = FKind.add.neutral .f32 hφ) :
    multiReduction (F := Ideal) (φ := .f32) .add [0] (⟨1, ![1]⟩ : Shape) u 0x00000000#32 h hφ hacc (ix1 (0 : Fin 1))
      = ∑ r : Fin 512, u (ix2 r (0 : Fin 1)) := by
  refine (Ideal.multiReduction_add_single u 0x00000000#32 h hφ hacc (ix1 (0 : Fin 1))).trans ?_
  refine Finset.sum_congr rfl fun r _ => ?_
  exact congrArg u (funext fun a => Fin.ext (by match a with | ⟨0, _⟩ => rfl | ⟨1, _⟩ => rfl))

/-- The sum of a [512, 1024] matrix along each row, at row r. -/
theorem rowSum_apply (e : (⟨2, ![512, 1024]⟩ : Shape).Idx → EReal) (h : (⟨2, ![512, 1024]⟩ : Shape).Reduces [1] ⟨1, ![512]⟩)
    (hφ : FKind.Formats .f32) (hacc : (0x00000000#32 : BitVec 32) = FKind.add.neutral .f32 hφ) (r : Fin 512) :
    multiReduction (F := Ideal) (φ := .f32) .add [1] (⟨1, ![512]⟩ : Shape) e 0x00000000#32 h hφ hacc (ix1 r)
      = ∑ j : Fin 1024, e (ix2 r j) := by
  refine (Ideal.multiReduction_add_single e 0x00000000#32 h hφ hacc (ix1 r)).trans ?_
  refine Finset.sum_congr rfl fun j _ => ?_
  exact congrArg e (funext fun a => Fin.ext (by match a with | ⟨0, _⟩ => rfl | ⟨1, _⟩ => rfl))

/-- A [512] vector kept as a [512, 1] column reads row r at (r, 0). -/
theorem column_apply (s : (⟨1, ![512]⟩ : Shape).Idx → EReal) (h : (⟨1, ![512]⟩ : Shape).ShapeCasts ⟨2, ![512, 1]⟩) (r : Fin 512) :
    shapeCast (⟨2, ![512, 1]⟩ : Shape) s h (ix2 r (0 : Fin 1)) = s (ix1 r) :=
  shapeCast_apply s h _ (ix1 r) (by rw [Shape.rowMajor_val_one, Shape.rowMajor_val_two]; show r.val = r.val * 1 + 0; omega)

/-- The accumulator the body stores is the one it loaded plus the block's value, at every entry. -/
theorem pay3_apply (x0 x1 x2 x3 : Vec Ideal S512x1024 .f32) (v26 : Vec Ideal S8x128 .f32) (y : S8x128.Idx) :
    k0_pay3 (F := Ideal) x0 x1 x2 x3 v26 y = v26 y + blockVal x0 x1 x2 x3 := by
  unfold k0_pay3
  refine (spread_apply _ v26 _ _ _ _ y).trans (congrArg (v26 y + ·) ?_)
  refine (colSum_apply _ _ _ _).trans ?_
  unfold blockVal
  refine Finset.sum_congr rfl fun r _ => ?_
  unfold rowVal
  show cHalf * (shapeCast S512x1 _ _ (ix2 r (0 : Fin 1)) - cDim) = _
  refine congrArg (fun z => cHalf * (z - cDim)) ?_
  refine (column_apply _ _ r).trans ?_
  refine (rowSum_apply _ _ _ _ r).trans ?_
  rfl

/-- The accumulator is started from zeros. -/
theorem pay2_apply (y : S8x128.Idx) : k0_pay2 (F := Ideal) y = cZero := by
  unfold k0_pay2
  rw [shapeCast_self]
  rfl

/-- The [8, 128] accumulator written out as a [1, 8, 128] block reads (0, a, b) at (a, b). -/
theorem pay1_apply (v : Vec Ideal S8x128 .f32) (i : Fin 1) (a : Fin 8) (b : Fin 128) :
    k0_pay1 (F := Ideal) v (ix3 i a b) = v (ix2 a b) := by
  unfold k0_pay1
  refine (shapeCast_addUnit_apply ![8, 128] v _ (ix3 i a b)).trans ?_
  exact congrArg v (funext fun d => by match d with | ⟨0, _⟩ => rfl | ⟨1, _⟩ => rfl)

end Cert.KernelIdeal.KValue

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.Fold.lean ====
/-
  The order in which the row values are added up.

  One side adds the 16384 row values in one sum. The other walks 32 blocks of 512 rows: a block's value is the sum of
  its 512 row values; an accumulator is restarted from a zero at every sixteenth block and adds one block's value per
  step; the two accumulators standing after blocks 15 and 31 are added. Both are the same sum: the sixteen steps of
  an accumulator add up sixteen consecutive block values, and 2 · 16 · 512 consecutive rows are all the rows.
  Addition on the extended reals is commutative and associative, and that is all that is used.
-/
import proofs.«109053_j24172075941906_2_alg».proof.Proof.Spec
import proofs.«109053_j24172075941906_2_alg».proof.Proof.LibBlockSum

noncomputable section

namespace Cert.KL

open Cert.Lib.BlockSum

/-- Block `t`'s value: the sum of its 512 row values, rows counted through the whole array. -/
def blkN (g : ℕ → EReal) (t : ℕ) : EReal := ∑ r : Fin 512, g (512 * t + r.val)

/-- The accumulator after block `n`: restarted from `z` at every sixteenth block, one block's value added per step. -/
def accN (g : ℕ → EReal) (z : EReal) : ℕ → EReal
  | 0 => z + blkN g 0
  | n + 1 => if (n + 1) % 16 = 0 then z + blkN g (n + 1) else accN g z n + blkN g (n + 1)

theorem accN_succ (g : ℕ → EReal) (z : EReal) (n : ℕ) :
    accN g z (n + 1) = if (n + 1) % 16 = 0 then z + blkN g (n + 1) else accN g z n + blkN g (n + 1) := rfl

/-- After step `i` of round `k` the accumulator holds `z` plus the round's first `i + 1` block values. -/
theorem accN_closed (g : ℕ → EReal) (z : EReal) (k : ℕ) :
    ∀ i : ℕ, i < 16 → accN g z (16 * k + i) = z + ∑ j ∈ Finset.range (i + 1), blkN g (16 * k + j)
  | 0, _ => by
    rw [Finset.sum_range_one]
    cases k with
    | zero => rfl
    | succ k =>
      rw [show 16 * (k + 1) + 0 = (16 * k + 15) + 1 by omega, accN_succ, if_pos (by omega)]
  | i + 1, hi => by
    have ih := accN_closed g z k i (by omega)
    show accN g z ((16 * k + i) + 1) = _
    rw [accN_succ, if_neg (by omega), ih, Finset.sum_range_succ (fun j => blkN g (16 * k + j)) (i + 1), add_assoc]
    rfl

/-- The accumulator standing at the end of round `k`. -/
theorem accN_last (g : ℕ → EReal) (z : EReal) (k : ℕ) :
    accN g z (16 * k + 15) = z + ∑ i : Fin 16, blkN g (16 * k + i.val) := by
  rw [accN_closed g z k 15 (by omega), Finset.sum_range]

/-- The two standing accumulators added up are all the rows added up. -/
theorem rounds_eq_rows (g : ℕ → EReal) :
    ∑ k : Fin 2, accN g 0 (16 * k.val + 15) = ∑ b : Fin 16384, g b.val := by
  show _ = ∑ b : Fin (32 * 512), g b.val
  rw [sum_blocks 32 512 (fun b => g b.val)]
  show _ = ∑ q : Fin (2 * 16), ∑ r : Fin 512, g (pos 32 512 q r).val
  rw [sum_blocks 2 16 (fun q => ∑ r : Fin 512, g (pos 32 512 q r).val)]
  refine Finset.sum_congr rfl fun k _ => ?_
  rw [accN_last, zero_add]
  refine Finset.sum_congr rfl fun i _ => ?_
  unfold blkN
  refine Finset.sum_congr rfl fun r _ => ?_
  refine congrArg g ?_
  rw [pos_val, pos_val]
  omega

end Cert.KL

end
-- ==== Proof.Accum.lean ====
/-
  The accumulator along the grid, and the array the region leaves.

  The grid has 2 · 16 points; point t sees rows 512 t … 512 t + 511 of each argument. Its block's value is therefore
  the sum of the row values of those rows of the whole arrays. The accumulator is reset at the points 0 and 16 and
  adds one block's value per point, so after point t every entry of it holds the running sum of its round; the output
  block written at the points 15 and 31 holds the round's sum at every entry. The [2, 8, 128] result array is
  covered by those two blocks: entry (k, a, b) is the sum of round k.
-/
import proofs.«109053_j24172075941906_2_alg».proof.Proof.Pieces
import proofs.«109053_j24172075941906_2_alg».proof.Proof.Payload
import proofs.«109053_j24172075941906_2_alg».proof.Proof.Fold

noncomputable section

namespace Cert.KernelIdeal.KValue

open Cert.KernelIdeal Cert.KernelIdeal.Gen Idealize.ShloMosaic Idealize.ShloMosaic.TcCoe Idealize.SL.Sem
open Idealize.ShloMosaic.ValueIdx Cert.KL
open Idealize.ShloMosaic.Pipeline (Dat)

variable (m : (ℓ : Loc nD τ sig) → Buf (Elt Ideal) ℓ) (ρ : Dev nD → PrngReg)

/-- Row `n` of the whole arguments has the row value of the specification; past the arrays, zero. -/
def rowN (c : Dev nD) (n : ℕ) : EReal :=
  if h : n < 16384 then
    rowVal (R := 16384) (m ((c : Thread nD τ).loc main_arg0)) (m ((c : Thread nD τ).loc main_arg1))
      (m ((c : Thread nD τ).loc main_arg2)) (m ((c : Thread nD τ).loc main_arg3)) ⟨n, h⟩
  else 0

/-- The block indices of the five windows at every point: the inputs' row block is the point itself, the output's
    block is the point's round. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

/-- An input block read at (r, j) is the argument at row 512 t + r, lane j. -/
theorem iblk0_apply (c : Dev nD) (t : Fin cfg0.N) (r : Fin 512) (j : Fin 1024) (h : 512 * t.val + r.val < 16384) :
    (iblk m c 0 t : Vec Ideal S512x1024 .f32) (ix2 r j) = m ((c : Thread nD τ).loc main_arg0) (ix2 ⟨512 * t.val + r.val, h⟩ j) := by
  obtain ⟨e0, e1, -⟩ := index_facts t
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * j.val = j.val; rw [e1]; omega
theorem iblk1_apply (c : Dev nD) (t : Fin cfg0.N) (r : Fin 512) (j : Fin 1024) (h : 512 * t.val + r.val < 16384) :
    (iblk m c 1 t : Vec Ideal S512x1024 .f32) (ix2 r j) = m ((c : Thread nD τ).loc main_arg1) (ix2 ⟨512 * t.val + r.val, h⟩ j) := by
  obtain ⟨-, -, e0, e1, -⟩ := index_facts t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 2) * 512 + 1 * r.val = 512 * t.val + r.val; rw [e0]; omega
  | ⟨1, _⟩ => show win0_1.index t (1 : Fin 2) * 1024 + 1 * j.val = j.val; rw [e1]; omega
theorem iblk2_apply (c : Dev nD) (t : Fin cfg0.N) (r : Fin 512) (j : Fin 1024) (h : 512 * t.val + r.val < 16384) :
    (iblk m c 2 t : Vec Ideal S512x1024 .f32) (ix2 r j) = m ((c : Thread nD τ).loc main_arg2) (ix2 ⟨512 * t.val + r.val, h⟩ j) := by
  obtain ⟨-, -, -, -, e0, e1, -⟩ := index_facts t
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_2.index t (0 : Fin 2) * 512 + 1 * r.val = 512 * t.val + r.val; rw [e0]; omega
  | ⟨1, _⟩ => show win0_2.index t (1 : Fin 2) * 1024 + 1 * j.val = j.val; rw [e1]; omega
theorem iblk3_apply (c : Dev nD) (t : Fin cfg0.N) (r : Fin 512) (j : Fin 1024) (h : 512 * t.val + r.val < 16384) :
    (iblk m c 3 t : Vec Ideal S512x1024 .f32) (ix2 r j) = m ((c : Thread nD τ).loc main_arg3) (ix2 ⟨512 * t.val + r.val, h⟩ j) := by
  obtain ⟨-, -, -, -, -, -, e0, e1, -⟩ := index_facts t
  unfold iblk
  rw [View.read_apply]
  show m ((c : Thread nD τ).loc main_arg3) _ = m ((c : Thread nD τ).loc main_arg3) _
  refine congrArg (m ((c : Thread nD τ).loc main_arg3)) (funext fun a => Fin.ext ?_)
  match a with
  | ⟨0, _⟩ => show win0_3.index t (0 : Fin 2) * 512 + 1 * r.val = 512 * t.val + r.val; rw [e0]; omega
  | ⟨1, _⟩ => show win0_3.index t (1 : Fin 2) * 1024 + 1 * j.val = j.val; rw [e1]; omega

/-- The value of the block point `t` sees. -/
def blkAt (c : Dev nD) (t : Fin cfg0.N) : EReal :=
  blockVal (R := 512) (iblk m c 0 t : Vec Ideal S512x1024 .f32) (iblk m c 1 t : Vec Ideal S512x1024 .f32)
    (iblk m c 2 t : Vec Ideal S512x1024 .f32) (iblk m c 3 t : Vec Ideal S512x1024 .f32)

/-- It is the sum of the row values of rows 512 t … 512 t + 511 of the whole arguments. -/
theorem blkAt_eq (c : Dev nD) (t : Fin cfg0.N) : blkAt m c t = blkN (rowN m c) t.val := by
  have hN : t.val < 32 := lt_of_lt_of_eq t.isLt (show cfg0.N = 32 from N_0)
  unfold blkAt blockVal blkN
  refine Finset.sum_congr rfl fun r _ => ?_
  have hr : 512 * t.val + r.val < 16384 := by have := r.isLt; omega
  unfold rowN
  rw [dif_pos hr]
  unfold rowVal
  refine congrArg (fun z => cHalf * (z - cDim)) (Finset.sum_congr rfl fun j _ => ?_)
  rw [iblk0_apply m c t r j hr, iblk1_apply m c t r j hr, iblk2_apply m c t r j hr, iblk3_apply m c t r j hr]

/-- After point `n` every entry of the accumulator holds the running sum of the point's round. -/
theorem scratch_eq (c : Dev nD) : ∀ (n : ℕ) (h : n < cfg0.N),
    (outsAt0 m c n h).2 = fun _ => accN (rowN m c) cZero n
  | 0, h => by
    have h1 : ¬(⟨0, h⟩ : Fin cfg0.N).val % 16 = 15 := by dsimp only; omega
    refine (congrArg Prod.snd (outsAt0_A m c ⟨0, h⟩ rfl h1)).trans ?_
    refine (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun hh => h1 ((hcond0_1 ⟨0, h⟩).mp hh)) (iblk m c 0 ⟨0, h⟩) (iblk m c 1 ⟨0, h⟩) (iblk m c 2 ⟨0, h⟩) (iblk m c 3 ⟨0, h⟩)).trans ?_
    funext y
    rw [pay3_apply, pay2_apply]
    show cZero + blkAt m c ⟨0, h⟩ = cZero + blkN (rowN m c) 0
    rw [blkAt_eq]
  | n + 1, h => by
    have hN : n + 1 < 32 := lt_of_lt_of_eq h (show cfg0.N = 32 from N_0)
    have ih : ∀ p, (outsAt0 m c ((⟨n + 1, h⟩ : Fin cfg0.N).val - 1) p).2 = fun _ => accN (rowN m c) cZero n :=
      fun p => scratch_eq c n _
    by_cases h0 : (n + 1) % 16 = 0
    · have h1 : ¬(n + 1) % 16 = 15 := by omega
      refine (congrArg Prod.snd (outsAt0_A m c ⟨n + 1, h⟩ h0 h1)).trans ?_
      refine (scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)).trans ?_
      funext y
      rw [pay3_apply, pay2_apply, accN_succ, if_pos h0]
      show cZero + blkAt m c ⟨n + 1, h⟩ = cZero + blkN (rowN m c) (n + 1)
      rw [blkAt_eq]
    · by_cases h1 : (n + 1) % 16 = 15
      · refine (congrArg Prod.snd (outsAt0_C m c ⟨n + 1, h⟩ h0 h1)).trans ?_
        refine (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) _).trans ?_
        funext y
        rw [pay3_apply, ih, accN_succ, if_neg h0]
        show accN (rowN m c) cZero n + blkAt m c ⟨n + 1, h⟩ = accN (rowN m c) cZero n + blkN (rowN m c) (n + 1)
        rw [blkAt_eq]
      · refine (congrArg Prod.snd (outsAt0_B m c ⟨n + 1, h⟩ h0 h1)).trans ?_
        refine (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) _).trans ?_
        funext y
        rw [pay3_apply, ih, accN_succ, if_neg h0]
        show accN (rowN m c) cZero n + blkAt m c ⟨n + 1, h⟩ = accN (rowN m c) cZero n + blkN (rowN m c) (n + 1)
        rw [blkAt_eq]

/-- At the last point of a round the output block holds the round's sum at every entry. -/
theorem out_eq (c : Dev nD) (t : Fin cfg0.N) (h15 : t.val % 16 = 15) :
    (outsAt0 m c t.val t.isLt).1 = fun _ => accN (rowN m c) cZero t.val := by
  have h0 : ¬t.val % 16 = 0 := by omega
  obtain ⟨n, hn⟩ : ∃ n, t.val = n + 1 := ⟨t.val - 1, by omega⟩
  refine (congrArg Prod.fst (outsAt0_C m c t h0 h15)).trans ?_
  refine (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (iblk m c 0 t) (iblk m c 1 t) (iblk m c 2 t) (iblk m c 3 t) _).trans ?_
  funext y
  obtain ⟨i, a, b, rfl⟩ : ∃ (i : Fin 1) (a : Fin 8) (b : Fin 128), y = ix3 i a b := ⟨y 0, y 1, y 2, eq_ix3 y⟩
  rw [pay1_apply, pay3_apply]
  have e : (outsAt0 m c (t.val - 1) (Nat.lt_of_le_of_lt (Nat.sub_le _ _) t.isLt)).2 = fun _ => accN (rowN m c) cZero (t.val - 1) :=
    scratch_eq m c _ _
  rw [e, show blockVal (R := 512) (iblk m c 0 t : Vec Ideal S512x1024 .f32) (iblk m c 1 t : Vec Ideal S512x1024 .f32)
    (iblk m c 2 t : Vec Ideal S512x1024 .f32) (iblk m c 3 t : Vec Ideal S512x1024 .f32) = blkAt m c t from rfl, blkAt_eq]
  rw [hn, accN_succ, if_neg (by omega)]
  rfl

end Cert.KernelIdeal.KValue

end
-- ==== Proof.Result.lean ====
/-
  The kernel's result.

  The region writes its output block back at the last point of each round; block k of the [2, 8, 128] result array is
  written at point 16 k + 15 and holds round k's sum at every entry, and the two blocks cover the array. The lines after
  the region take entry (k, 0, 0) of each round, add the two from a zero and divide by the number of rows: the sum of all
  row values divided by their number, which is the specification's mean.
-/
import proofs.«109053_j24172075941906_2_alg».proof.Proof.Accum
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.KL
open Idealize.ShloMosaic.Pipeline (Dat)

variable (m : (ℓ : Loc nD τ sig) → Buf (Elt Ideal) ℓ) (ρ : Dev nD → PrngReg)

/-- The array the region leaves: entry (k, a, b) is round k's sum. -/
def roundsArr (c : Dev nD) : S2x8x128.Idx → EReal := fun i => accN (rowN m c) cZero (16 * (i 0).val + 15)

/-- An index of the result array is in point t's block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0).slice (win0_4.rect t)).set ↔ _
  rw [View.set_slice_whole, Rect.mem_set_unit]
  exact Iff.rfl

/-- What a round's last point writes back is its block of that array. -/
theorem flushed_eq (c : Dev nD) (t : Fin cfg0.N) (hf : (cfg0.win 4).flush t = true) :
    (dats m 0 c).flushed 4 t = ((cfg0.win 4).blk t).view.read (Elt Ideal) (roundsArr m c) := by
  have h15 : t.val % 16 = 15 := (flush0_4 t).mp hf
  obtain ⟨-, -, -, -, -, -, -, -, e0, -, -⟩ := index_facts t
  show (cfg0.win 4).cut (grid0.coords t) ((dats m 0 c).after 4 t) = _
  rw [after0_4, out_eq m c t h15]
  funext y
  rw [View.read_apply]
  have hy : (y 0).val < 1 := (y 0).isLt
  show accN (rowN m c) cZero t.val = accN (rowN m c) cZero (16 * (win0_4.index t (0 : Fin 3) * 1 + 1 * (y 0).val) + 15)
  rw [e0]
  refine congrArg (accN (rowN m c) cZero) ?_
  omega

/-- Every entry of the result array lies in the block of its round's last point. -/
theorem cover (c : Dev nD) (i : S2x8x128.Idx) :
    ∃ t : Fin cfg0.N, (cfg0.win 4).flush t = true ∧ i ∈ ((cfg0.win 4).blk t).view.set := by
  have hN : cfg0.N = 32 := N_0
  have h0 : (i 0).val < 2 := (i 0).isLt
  have h1 : (i 1).val < 8 := (i 1).isLt
  have h2 : (i 2).val < 128 := (i 2).isLt
  obtain ⟨t, ht⟩ : ∃ t : Fin cfg0.N, t.val = 16 * (i 0).val + 15 := ⟨⟨16 * (i 0).val + 15, by omega⟩, rfl⟩
  obtain ⟨-, -, -, -, -, -, -, -, e0, e1, e2⟩ := index_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 8 ≤ (i 1).val ∧ (i 1).val < win0_4.index t (1 : Fin 3) * 8 + 8; rw [e1]; omega
  | ⟨2, _⟩ => show win0_4.index t (2 : Fin 3) * 128 ≤ (i 2).val ∧ (i 2).val < win0_4.index t (2 : Fin 3) * 128 + 128; rw [e2]; omega

/-- So the region leaves that array. -/
theorem final_eq (c : Dev nD) : (dats m 0 c).arrAt 4 cfg0.N = roundsArr m c :=
  (dats m 0 c).arrAt_eq_of_cover 4 (roundsArr m c) (flushed_eq m c) (fun i => cover c i)

/-- A sum of two numbers from a zero, divided by the row count, read at the scalar's one index. -/
theorem tail_apply (y0 : (⟨1, ![2]⟩ : Shape).Idx → EReal) (h' : (⟨1, ![2]⟩ : Shape).ReducesTo [0] ⟨0, ![]⟩)
    (hS : 0 < (⟨0, ![]⟩ : Shape).numel) (i : (⟨0, ![]⟩ : Shape).Idx) :
    Host.divf (F := Ideal) (φ := .f32) (Host.reduceAdd (F := Ideal) (φ := .f32) y0 (constant (F := Ideal) ⟨0, ![]⟩ .f32 0x00000000#32) h' hS)
        (constant (F := Ideal) ⟨0, ![]⟩ .f32 0x46800000#32) i
      = Ideal.div (cZero + ∑ k : Fin 2, y0 (ix1 k)) cCount := by
  show Ideal.div (Host.reduceAdd (F := Ideal) (φ := .f32) y0 (constant (F := Ideal) ⟨0, ![]⟩ .f32 0x00000000#32) h' hS i) cCount = _
  refine congrArg (Ideal.div · cCount) ?_
  simp only [Host.reduceAdd, Ideal.hostReduceAdd_def]
  rw [Ideal.hostReduceAdd_total h' (fun b => b.elim0) y0 _ i, sum_idx1]
  rfl

/-- Entry (k, 0, 0) of the array the region leaves, as the lines after the region read it. -/
theorem picked_apply (c : Dev nD) (k : Fin 2) (h1 : S2x8x128.Slices ![0, 0, 0] S2x1x1) (h2 : S2x1x1.ShapeCasts S2) :
    shapeCast S2 (extractStridedSlice S2x1x1 ![0, 0, 0]
        (Pipeline.withArrays (cfgs 0).spec c (V0 m c) (fun w => (dats m 0 c).arrAt w (cfgs 0).N) (Proc.tc.devRef main_v0)) h1) h2 (ix1 k)
      = accN (rowN m c) cZero (16 * k.val + 15) := by
  refine (shapeCast_apply _ h2 (ix1 k) (ix3 k (0 : Fin 1) (0 : Fin 1)) (by rw [Shape.rowMajor_val_one, Shape.rowMajor_val_three]; show (k.val * 1 + 0) * 1 + 0 = k.val; omega)).trans ?_
  refine (extractStridedSlice_apply ![0, 0, 0] _ h1 (ix3 k (0 : Fin 1) (0 : Fin 1)) (ix3 k (0 : Fin 8) (0 : Fin 128))
    (fun a => by match a with | ⟨0, _⟩ => show k.val = 0 + k.val; omega | ⟨1, _⟩ => rfl | ⟨2, _⟩ => rfl)).trans ?_
  exact congrFun ((Pipeline.withArrays_arr spec0 launch0.win.arr_inj c (V0 m c) (fun w => (dats m 0 c).arrAt w (cfgs 0).N) 4).trans (final_eq m c))
    (ix3 k (0 : Fin 8) (0 : Fin 128))

/-- The lines after the region: entry (k, 0, 0) of each round, the two added from a zero, divided by the row count. -/
theorem tail_eq (c : Dev nD) :
    Pipeline.afterTail₀ cfgs (dats m) 0 (V0 m) [hostOps1] c main_v4
      = fun _ => total (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  funext i
  refine (tail_apply _ _ _ i).trans ?_
  unfold total
  refine congrArg (Ideal.div · cCount) ?_
  rw [show (∑ b : Fin 16384, rowVal (R := 16384) (m ((c : Thread nD τ).loc main_arg0)) (m ((c : Thread nD τ).loc main_arg1))
      (m ((c : Thread nD τ).loc main_arg2)) (m ((c : Thread nD τ).loc main_arg3)) b) = ∑ b : Fin 16384, rowN m c b.val from
    Finset.sum_congr rfl fun b _ => by unfold rowN; rw [dif_pos b.isLt]]
  rw [← rounds_eq_rows (rowN m c), cZero_eq, zero_add]
  refine Finset.sum_congr rfl fun k _ => ?_
  exact (picked_apply m c k _ _).trans (by rw [cZero_eq])

/-- The result buffer is no array of the region's windows: the region passes it by. -/
theorem result_bypasses : main_v4 ∈ Pipeline.restRefs sig (cfgs 0).spec :=
  Pipeline.mem_restRefs_of main_v4 rfl (by decide)

/-- Every execution ends with the result at the mean of the row values and the arguments unchanged. -/
theorem run : θ_run defs (onTc (τ := τ) (main (F := Ideal))) ⟨m, fun _ => 0, ρ⟩ fun r => ∀ c : Dev nD,
      r.2.mem ((c.tc : Thread nD τ).loc main_v4)
        = (fun _ => total (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.lean ====
/-
  The mean divergence between 16384 pairs of diagonal Gaussians in 1024 dimensions, computed two ways.

  One program walks the batch in 32 blocks of 512 rows on a 2 × 16 grid. At each block it forms, entry by entry,
  (log v2 - log v1) + v1 · (1 / v2) + (m2 - m1)² · (1 / v2), sums each row, subtracts the dimension, halves, sums the 512
  rows and adds the number to an accumulator that is restarted every sixteen blocks; the two accumulators are then added
  and divided by the number of rows. The other program sums log v2 - log v1, v1 / v2 and (m2 - m1)² / v2 separately along
  each row, combines and halves them per row, and takes the mean over the rows.

  On the extended reals the two agree on every input. Entry by entry, off v2 = 0 a quotient x / v2 is the product
  x · v2⁻¹; at v2 = 0 the logarithm is the bottom element, which absorbs both forms. Everything else is a different
  order of the same additions, and addition of extended reals is commutative and associative. So both results are the
  one number the specification names (the sum of the row values divided by the row count), and finiteness of the inputs
  is never used. The idealized program differs from the printed one by no rewrite, so that conjunct is trivial.
-/
import proofs.«109053_j24172075941906_2_alg».proof.Defs
import proofs.«109053_j24172075941906_2_alg».proof.Proof.Gen.Kernel
import proofs.«109053_j24172075941906_2_alg».proof.Proof.Gen.Kernel.Skeleton
import proofs.«109053_j24172075941906_2_alg».proof.Proof.Gen.Kernel.Launch
import proofs.«109053_j24172075941906_2_alg».proof.Proof.Gen.Kernel.Points
import proofs.«109053_j24172075941906_2_alg».proof.Proof.Gen.Kernel.Frame
import proofs.«109053_j24172075941906_2_alg».proof.Proof.Gen.KernelIdeal
import proofs.«109053_j24172075941906_2_alg».proof.Proof.Gen.KernelIdeal.Skeleton
import proofs.«109053_j24172075941906_2_alg».proof.Proof.Gen.KernelIdeal.Launch
import proofs.«109053_j24172075941906_2_alg».proof.Proof.Gen.KernelIdeal.Points
import proofs.«109053_j24172075941906_2_alg».proof.Proof.Gen.KernelIdeal.Frame
import proofs.«109053_j24172075941906_2_alg».proof.Proof.Gen.ReferenceIdeal
import proofs.«109053_j24172075941906_2_alg».proof.Proof.Gen.Pre_finite_inputs
import proofs.«109053_j24172075941906_2_alg».proof.Proof.Gen.ReferenceIdeal.Run
import proofs.«109053_j24172075941906_2_alg».proof.Proof.Gen.ReferenceIdeal.Read
import proofs.«109053_j24172075941906_2_alg».proof.Proof.RefValue
import proofs.«109053_j24172075941906_2_alg».proof.Proof.Result
import Idealize.ShloMosaic.Adequacy
import Idealize.ShloMosaic.Init

noncomputable section

namespace Cert.Proof

open Idealize.ShloMosaic Idealize.SL.Sem Cert.Kernel

/-- The printed program runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the mean of the row values of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
